-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256x1 .f32) (main_arg6 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : IVec S2x3200000 32) (main_arg2 : FVec F S3200000 .f32) (main_arg3 : FVec F S256x1 .f32) (main_arg4 : FVec F S1 .f32) (main_arg5 : FVec F S256x1 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x1 : Shape := ⟨2, ![256, 1]⟩
abbrev S1 : Shape := ⟨1, ![1]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S256x2 : Shape := ⟨2, ![256, 2]⟩
abbrev S2 : Shape := ⟨1, ![2]⟩
abbrev S1x2 : Shape := ⟨2, ![1, 2]⟩
abbrev S100000x2 : Shape := ⟨2, ![100000, 2]⟩
abbrev S4000x256 : Shape := ⟨2, ![4000, 256]⟩
abbrev S4000x2 : Shape := ⟨2, ![4000, 2]⟩
abbrev S100000x1 : Shape := ⟨2, ![100000, 1]⟩
abbrev S25000x128 : Shape := ⟨2, ![25000, 128]⟩
abbrev S5000x128 : Shape := ⟨2, ![5000, 128]⟩

abbrev nBuf : Space → Nat
  | .hbm => 62
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x1, .f32⟩
  | .hbm, ⟨4, _⟩ => ⟨S1, .f32⟩
  | .hbm, ⟨5, _⟩ => ⟨S256x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S3200000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S256x2, .f32⟩
  | .hbm, ⟨21, _⟩ => ⟨S2, .f32⟩
  | .hbm, ⟨22, _⟩ => ⟨S1x2, .f32⟩
  | .hbm, ⟨23, _⟩ => ⟨S100000x2, .f32⟩
  | .hbm, ⟨24, _⟩ => ⟨S100000x1, .f32⟩
  | .hbm, ⟨25, _⟩ => ⟨S100000, .f32⟩
  | .hbm, ⟨26, _⟩ => ⟨S100000x1, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000, .f32⟩
  | .hbm, ⟨56, _⟩ => ⟨S25000x128, .f32⟩
  | .hbm, ⟨57, _⟩ => ⟨S25000x128, .f32⟩
  | .hbm, ⟨58, _⟩ => ⟨S25000x128, .f32⟩
  | .hbm, ⟨59, _⟩ => ⟨S25000x128, .f32⟩
  | .hbm, ⟨60, _⟩ => ⟨S25000x128, .f32⟩
  | .hbm, ⟨61, _⟩ => ⟨S3200000, .f32⟩
  | .local _ .vmem, ⟨0, _⟩ => ⟨S4000x256, .f32⟩
  | .local _ .vmem, ⟨1, _⟩ => ⟨S4000x256, .f32⟩
  | .local _ .vmem, ⟨2, _⟩ => ⟨S256x2, .f32⟩
  | .local _ .vmem, ⟨3, _⟩ => ⟨S1x2, .f32⟩
  | .local _ .vmem, ⟨4, _⟩ => ⟨S4000x2, .f32⟩
  | .local _ .vmem, ⟨5, _⟩ => ⟨S4000x2, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S256x1_S256x1_S256x2_d1 : Shape.Concatenates [S256x1, S256x1] S256x2 1
  concatenates_S1_S1_S2_d0 : Shape.Concatenates [S1, S1] S2 0
  shapeCasts_S2_S1x2 : S2.ShapeCasts S1x2
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  shapeCasts_S3200000_S25000x128 : S3200000.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S25000x128_S3200000 : S25000x128.ShapeCasts S3200000
  scatter_S100000_S3200000x1_S3200000_n_0_0_1_wf : ScatterDims.WF S100000 S3200000x1 S3200000 [] [0] [0] 1
  dot_S4000x256_S256x2_S4000x2_1_0_0_1_n_n_wf : DotDims.WF S4000x256 S256x2 S4000x2 [1] [0] [0] [1] [] []
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S256x2.size a
  hwx0_1 : ∀ i : grid0.Coords, EltTy.bits .f32 = 32 ∨ (Rect.block (s := S256x2) S256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x2.size a ≤ S100000x2.size a
  hwx0_3 : ∀ i : grid0.Coords, EltTy.bits .f32 = 32 ∨ (Rect.block (s := S100000x2) S4000x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S25000x128.size a
  hwx1_2 : ∀ i : grid1.Coords, EltTy.bits .f32 = 32 ∨ (Rect.block (s := S25000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S25000x128.size a
  hwx1_3 : ∀ i : grid1.Coords, EltTy.bits .f32 = 32 ∨ (Rect.block (s := S25000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S25000x128.size a
  hwx1_4 : ∀ i : grid1.Coords, EltTy.bits .f32 = 32 ∨ (Rect.block (s := S25000x128) S5000x128.size (cc1_transform_4 i) (hinb1_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x256_S256x2_S4000x2_1_0_0_1_n_n : DotDims S4000x256 S256x2 S4000x2 where
  lhsContracting := [1]
  rhsContracting := [0]
  lhsNonContracting := [0]
  rhsNonContracting := [1]
  lhsBatch := []
  rhsBatch := []
  wf := dot_S4000x256_S256x2_S4000x2_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x1 : Shape := ⟨2, ![256, 1]⟩
abbrev S1 : Shape := ⟨1, ![1]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x1, .f32⟩
  | .hbm, ⟨4, _⟩ => ⟨S1, .f32⟩
  | .hbm, ⟨5, _⟩ => ⟨S256x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S3200000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S3200000, .f32⟩
  | .hbm, ⟨40, _⟩ => ⟨S100000x1, .f32⟩
  | .hbm, ⟨41, _⟩ => ⟨S1x1, .f32⟩
  | .hbm, ⟨42, _⟩ => ⟨S100000x1, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000, .f32⟩
  | .hbm, ⟨48, _⟩ => ⟨S100000x1, .f32⟩
  | .hbm, ⟨49, _⟩ => ⟨S1x1, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000, .f32⟩
  | .hbm, ⟨65, _⟩ => ⟨S3200000, .f32⟩
  | .hbm, ⟨66, _⟩ => ⟨S_, .i32⟩
  | .hbm, ⟨67, _⟩ => ⟨S3200000, .i32⟩
  | .hbm, ⟨68, _⟩ => ⟨S3200000, .i1⟩
  | .hbm, ⟨69, _⟩ => ⟨S_, .i32⟩
  | .hbm, ⟨70, _⟩ => ⟨S3200000, .i32⟩
  | .hbm, ⟨71, _⟩ => ⟨S3200000, .i32⟩
  | .hbm, ⟨72, _⟩ => ⟨S3200000, .i32⟩
  | .hbm, ⟨73, _⟩ => ⟨S3200000x1, .i32⟩
  | .hbm, ⟨74, _⟩ => ⟨S3200000, .f32⟩
  | .hbm, ⟨75, _⟩ => ⟨S3200000, .f32⟩
  | .hbm, ⟨76, _⟩ => ⟨S3200000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x256_S256x1_S100000x1_1_0_0_1_n_n_wf : DotDims.WF S100000x256 S256x1 S100000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.GateLinear.lean ====
/-
  The first launch, on the extended reals: both gates of every node in one pass over the feature matrix.
  The [100000, 256] features are cut into 25 blocks of 4000 rows; the [256, 2] weights and the [1, 2] bias are the
  same block at every point. Within a block the body is a matrix product into a zero accumulator (at this instance the
  plain sum over the 256 features; the change of float format before it is the identity), plus the bias broadcast down
  the rows, then the maximum with zero. So the whole [100000, 2] output array is, index by index,
      out[n, j] = max (Σ_k x[n,k] · w[k,j] + b[0,j]) 0,
  and the 25 blocks tile the array (row n lies in block n / 4000).
-/
import proofs.«177552_j25744033972452_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.GateLinear

open Cert.KernelIdeal Cert.KernelIdeal.Gen Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- Gate j of node n from whole arrays: relu of the row-by-column product plus the bias. -/
def gateAt (x : S100000x256.Idx → Elt Ideal .f32) (w : S256x2.Idx → Elt Ideal .f32) (b : S1x2.Idx → Elt Ideal .f32)
    (n : Fin 100000) (j : Fin 2) : Elt Ideal .f32 :=
  max ((∑ k : Fin 256, x (ix2 n k) * w (ix2 k j)) + b (ix2 (0 : Fin 1) j)) (Ideal.ofBits .f32 0x00000000#32)

/-- The [100000, 2] array of both gates. -/
def gates (x : S100000x256.Idx → Elt Ideal .f32) (w : S256x2.Idx → Elt Ideal .f32) (b : S1x2.Idx → Elt Ideal .f32) :
    S100000x2.Idx → Elt Ideal .f32 :=
  fun i => gateAt x w b ⟨(i 0).val, (i 0).isLt⟩ ⟨(i 1).val, (i 1).isLt⟩

/-! ## The contraction's operand indices: output (p, q), feature k ↦ (p, k) and (k, q) -/

theorem lhs_row (i : S4000x2.Idx) (q : dot_S4000x256_S256x2_S4000x2_1_0_0_1_n_n.contr.Idx) : (dot_S4000x256_S256x2_S4000x2_1_0_0_1_n_n.lhsIdx i q 0).val = (i 0).val := by
  unfold DotDims.lhsIdx
  rw [dif_neg (show ¬(0 : Fin S4000x256.rank) ∈ dot_S4000x256_S256x2_S4000x2_1_0_0_1_n_n.lhsBatch by decide), dif_pos (show (0 : Fin S4000x256.rank) ∈ dot_S4000x256_S256x2_S4000x2_1_0_0_1_n_n.lhsNonContracting by decide)]
  rfl
theorem lhs_feat (i : S4000x2.Idx) (q : dot_S4000x256_S256x2_S4000x2_1_0_0_1_n_n.contr.Idx) : (dot_S4000x256_S256x2_S4000x2_1_0_0_1_n_n.lhsIdx i q 1).val = (q ⟨0, by decide⟩).val :=
  dot_S4000x256_S256x2_S4000x2_1_0_0_1_n_n.lhsIdx_val_of_single rfl i q
theorem rhs_feat (i : S4000x2.Idx) (q : dot_S4000x256_S256x2_S4000x2_1_0_0_1_n_n.contr.Idx) : (dot_S4000x256_S256x2_S4000x2_1_0_0_1_n_n.rhsIdx i q 0).val = (q ⟨0, by decide⟩).val :=
  dot_S4000x256_S256x2_S4000x2_1_0_0_1_n_n.rhsIdx_val_of_single rfl i q
theorem rhs_col (i : S4000x2.Idx) (q : dot_S4000x256_S256x2_S4000x2_1_0_0_1_n_n.contr.Idx) : (dot_S4000x256_S256x2_S4000x2_1_0_0_1_n_n.rhsIdx i q 1).val = (i 1).val := by
  unfold DotDims.rhsIdx
  rw [dif_neg (show ¬(1 : Fin S256x2.rank) ∈ dot_S4000x256_S256x2_S4000x2_1_0_0_1_n_n.rhsBatch by decide), dif_pos (show (1 : Fin S256x2.rank) ∈ dot_S4000x256_S256x2_S4000x2_1_0_0_1_n_n.rhsNonContracting by decide)]
  rfl

/-- The block's matrix product into zero, at (p, q): the sum over the features. -/
theorem product_at (a : FVec Ideal S4000x256 .bf16) (b : FVec Ideal S256x2 .bf16) (p : Fin 4000) (q : Fin 2) :
    (matmul dot_S4000x256_S256x2_S4000x2_1_0_0_1_n_n none a b (constant S4000x2 .f32 0x00000000#32) : FVec Ideal S4000x2 .f32) (ix2 p q)
      = ∑ k : Fin 256, a (ix2 p k) * b (ix2 k q) := by
  refine (Ideal.matmul_constant_zero_apply dot_S4000x256_S256x2_S4000x2_1_0_0_1_n_n none a b (ix2 p q)).trans ?_
  rw [← Equiv.sum_comp (ValueIdx.contrEquiv1 dot_S4000x256_S256x2_S4000x2_1_0_0_1_n_n 256 rfl rfl).symm]
  refine Finset.sum_congr rfl fun k _ => ?_
  have hk := ValueIdx.contrEquiv1_symm_val dot_S4000x256_S256x2_S4000x2_1_0_0_1_n_n 256 rfl rfl k
  have el : dot_S4000x256_S256x2_S4000x2_1_0_0_1_n_n.lhsIdx (ix2 p q) ((ValueIdx.contrEquiv1 dot_S4000x256_S256x2_S4000x2_1_0_0_1_n_n 256 rfl rfl).symm k) = ix2 p k := funext fun ax => Fin.ext (by
    match ax with
    | ⟨0, _⟩ => exact lhs_row _ _
    | ⟨1, _⟩ => exact (lhs_feat _ _).trans hk)
  have er : dot_S4000x256_S256x2_S4000x2_1_0_0_1_n_n.rhsIdx (ix2 p q) ((ValueIdx.contrEquiv1 dot_S4000x256_S256x2_S4000x2_1_0_0_1_n_n 256 rfl rfl).symm k) = ix2 k q := funext fun ax => Fin.ext (by
    match ax with
    | ⟨0, _⟩ => exact (rhs_feat _ _).trans hk
    | ⟨1, _⟩ => exact rhs_col _ _)
  rw [el, er]

/-- The body's stored value at (p, q), from its three loaded blocks. -/
theorem body_value (x0 : Vec Ideal S4000x256 .f32) (x1 : Vec Ideal S256x2 .f32) (x2 : Vec Ideal S1x2 .f32) (p : Fin 4000) (q : Fin 2) :
    k0_pay1 x0 x1 x2 (ix2 p q)
      = max ((∑ k : Fin 256, x0 (ix2 p k) * x1 (ix2 k q)) + x2 (ix2 (0 : Fin 1) q)) (Ideal.ofBits .f32 0x00000000#32) := by
  unfold k0_pay1
  simp only [shapeCast_self]
  show max ((matmul dot_S4000x256_S256x2_S4000x2_1_0_0_1_n_n none (truncf .bf16 x0 bitsLt_bf16_f32) (truncf .bf16 x1 bitsLt_bf16_f32)
      (constant S4000x2 .f32 0x00000000#32) : FVec Ideal S4000x2 .f32) (ix2 p q)
        + broadcastTo S4000x2 x2 broadcasts_S1x2_S4000x2 (ix2 p q)) (Ideal.ofBits .f32 0x00000000#32) = _
  rw [product_at, broadcastTo_1b_ab_apply]
  rfl

/-- One block against the whole arrays: if the feature block is rows base … base + 3999 of x, and the weight and bias
    blocks are the whole of w and b, the body's value at y is the gate array at the index y sits at. -/
theorem block_value (x : S100000x256.Idx → Elt Ideal .f32) (w : S256x2.Idx → Elt Ideal .f32) (b : S1x2.Idx → Elt Ideal .f32)
    (x0 : Vec Ideal S4000x256 .f32) (x1 : Vec Ideal S256x2 .f32) (x2 : Vec Ideal S1x2 .f32)
    (y : S4000x2.Idx) (i : S100000x2.Idx) (base : Nat) (hbase : base + 4000 ≤ 100000)
    (hrow : (i 0).val = base + (y 0).val) (hcol : (i 1).val = (y 1).val)
    (h0 : ∀ (p : Fin 4000) (k : Fin 256), x0 (ix2 p k) = x (ix2 ⟨base + p.val, by have := p.isLt; omega⟩ k))
    (h1 : ∀ (k : Fin 256) (q : Fin 2), x1 (ix2 k q) = w (ix2 k q))
    (h2 : ∀ q : Fin 2, x2 (ix2 (0 : Fin 1) q) = b (ix2 (0 : Fin 1) q)) :
    k0_pay1 x0 x1 x2 y = gates x w b i := by
  obtain ⟨p, q, rfl⟩ : ∃ (p : Fin 4000) (q : Fin 2), y = ix2 p q := ⟨y 0, y 1, eq_ix2 y⟩
  rw [body_value]
  unfold gates gateAt
  have en : (⟨(i 0).val, (i 0).isLt⟩ : Fin 100000) = ⟨base + p.val, by have := p.isLt; omega⟩ := Fin.ext hrow
  have eq : (⟨(i 1).val, (i 1).isLt⟩ : Fin 2) = q := Fin.ext hcol
  rw [en, eq, h2 q]
  congr 2
  exact Finset.sum_congr rfl fun k _ => by rw [h0 p k, h1 k q]

/-- Where each window's block sits at point t: the features' and the output's at rows 4000 t …, the weights' and the
    bias's at the origin. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the gate array of the three operand arrays as the launch finds them. -/
theorem flushed_eq (c : Dev nD) (t : Fin cfg0.N) :
    (dat0 V c).flushed 3 t = ((cfg0.win 3).blk t).view.read (Elt Ideal)
      (gates (V c main_arg0) (V c main_v10) (V c main_v12)) := by
  show (cfg0.win 3).cut (grid0.coords t) ((dat0 V c).after 3 t) = _
  rw [after0_3]
  unfold out0_3
  rw [View.canon_unit_zero origin]
  simp only [View.ld_unit_zero (S := S4000x256) origin, View.ld_unit_zero (S := S256x2) origin, View.ld_unit_zero (S := S1x2) origin]
  obtain ⟨e00, e01, e10, e11, e20, e21, e30, e31⟩ := block_index t
  have ht : t.val < 25 := by have h := t.isLt; have hN : cfg0.N = 25 := N_0; omega
  funext j
  have hj0 : (j 0).val < 4000 := (j 0).isLt
  have hj1 : (j 1).val < 2 := (j 1).isLt
  show k0_pay1 (fun y => V c main_arg0 (((cfg0.win 0).blk t).view.emb y)) (fun y => V c main_v10 (((cfg0.win 1).blk t).view.emb y))
      (fun y => V c main_v12 (((cfg0.win 2).blk t).view.emb y)) j
    = gates (V c main_arg0) (V c main_v10) (V c main_v12) (((cfg0.win 3).blk t).view.emb j)
  refine block_value (V c main_arg0) (V c main_v10) (V c main_v12)
    (fun y => V c main_arg0 (((cfg0.win 0).blk t).view.emb y)) (fun y => V c main_v10 (((cfg0.win 1).blk t).view.emb y))
    (fun y => V c main_v12 (((cfg0.win 2).blk t).view.emb y)) j (((cfg0.win 3).blk t).view.emb j) (t.val * 4000) (by omega) ?_ ?_ ?_ ?_ ?_
  · show win0_3.index t (0 : Fin 2) * 4000 + 1 * (j 0).val = t.val * 4000 + (j 0).val; omega
  · show win0_3.index t (1 : Fin 2) * 2 + 1 * (j 1).val = (j 1).val; omega
  · intro p k
    refine congrArg (V c main_arg0) (funext fun a => Fin.ext ?_)
    match a with
    | ⟨0, _⟩ => show win0_0.index t (0 : Fin 2) * 4000 + 1 * p.val = t.val * 4000 + p.val; omega
    | ⟨1, _⟩ => show win0_0.index t (1 : Fin 2) * 256 + 1 * k.val = k.val; omega
  · intro k q
    refine congrArg (V c main_v10) (funext fun a => Fin.ext ?_)
    match a with
    | ⟨0, _⟩ => show win0_1.index t (0 : Fin 2) * 256 + 1 * k.val = k.val; omega
    | ⟨1, _⟩ => show win0_1.index t (1 : Fin 2) * 2 + 1 * q.val = q.val; omega
  · intro q
    refine congrArg (V c main_v12) (funext fun a => Fin.ext ?_)
    match a with
    | ⟨0, _⟩ => show win0_2.index t (0 : Fin 2) * 1 + 1 * 0 = 0; omega
    | ⟨1, _⟩ => show win0_2.index t (1 : Fin 2) * 2 + 1 * q.val = q.val; omega

/-- An index of the output array lies in point t's block iff each coordinate lies in the block's range. -/
theorem mem_block (t : Fin cfg0.N) (i : S100000x2.Idx) :
    i ∈ ((cfg0.win 3).blk t).view.set ↔ ∀ a : Fin 2, win0_3.index t a * S4000x2.size a ≤ (i a).val
      ∧ (i a).val < win0_3.index t a * S4000x2.size a + S4000x2.size a := by
  show i ∈ ((View.whole main_v13).slice (win0_3.rect t)).set ↔ _
  rw [View.set_slice_whole, Rect.mem_set_unit]
  exact Iff.rfl

/-- Every index of the output array is in some point's block: row n is in block n / 4000. -/
theorem covered (i : S100000x2.Idx) :
    ∃ t : Fin cfg0.N, (cfg0.win 3).flush t = true ∧ i ∈ ((cfg0.win 3).blk t).view.set := by
  have hi0 : (i 0).val < 100000 := (i 0).isLt
  have hi1 : (i 1).val < 2 := (i 1).isLt
  have hN : cfg0.N = 25 := N_0
  have ht : (i 0).val / 4000 < cfg0.N := by rw [hN]; omega
  obtain ⟨e00, e01, e10, e11, e20, e21, e30, e31⟩ := block_index ⟨(i 0).val / 4000, ht⟩
  refine ⟨⟨(i 0).val / 4000, ht⟩, flush0_3 _, ?_⟩
  rw [mem_block]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ (1 : Fin 2) * 2 ≤ (i 1).val
      ∧ (i 1).val < win0_3.index ⟨(i 0).val / 4000, ht⟩ (1 : Fin 2) * 2 + 2
    rw [e31]; omega

/-- The output array after the launch is the gate array of the three operand arrays. -/
theorem final (c : Dev nD) :
    (dat0 V c).arrAt 3 cfg0.N = gates (V c main_arg0) (V c main_v10) (V c main_v12) :=
  (dat0 V c).arrAt_eq_of_cover 3 _ (fun t _ => flushed_eq V c t) covered

end Cert.KernelIdeal.GateLinear

end
-- ==== Proof.Stages.lean ====
/-
  The array operations around the two launches, named, and what each boundary of the program holds (extended reals).

  From the edge list: the two endpoint rows (`rowOf`, `colOf`); an endpoint wrapped into a start index (`startIdx`:
  a negative entry has the node count added); `take x r`, the table x read at the wrapped endpoints; the degree
  normaliser `degNorm` (ones scattered and added at the target endpoints, raised to the power -1/2). From the
  parameters: the two weight columns side by side (`weights`) and the two biases as a row (`biases`). From the first
  launch's [100000, 2] result: its two columns as flat tables (`column0`, `column1`).

  Entry of the first launch: its operands are the features, `weights`, `biases`. Its exit: the gate array, everything
  else untouched. Entry of the second launch: the four per-edge streams, each a flat array laid out as [25000, 128].
-/
import proofs.«177552_j25744033972452_2_alg».proof.Proof.Gen.KernelIdeal.Frame
import proofs.«177552_j25744033972452_2_alg».proof.Proof.GateLinear
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Stages

open Cert.KernelIdeal Cert.KernelIdeal.Gen Idealize.ShloMosaic.StableHlo

abbrev IArr (s : Shape) := (⟨s, .i32⟩ : BufTy).Contents (Elt Ideal)
abbrev FArr (s : Shape) := (⟨s, .f32⟩ : BufTy).Contents (Elt Ideal)

/-- The source endpoints: row 0 of the edge list. -/
def rowOf (ei : IArr S2x3200000) : IArr S3200000 :=
  shapeCast S3200000 (extractStridedSlice S1x3200000 ![0, 0] ei slices_S2x3200000_S1x3200000_0_0) shapeCasts_S1x3200000_S3200000

/-- The target endpoints: row 1 of the edge list. -/
def colOf (ei : IArr S2x3200000) : IArr S3200000 :=
  shapeCast S3200000 (extractStridedSlice S1x3200000 ![1, 0] ei slices_S2x3200000_S1x3200000_1_0) shapeCasts_S1x3200000_S3200000

/-- Endpoints as start indices: a negative one has the node count added. -/
def startIdx (r : IArr S3200000) : IArr S3200000x1 :=
  broadcastInDim S3200000x1 ![0] bcast_S3200000_S3200000x1_0
    (select (cmpi CmpIPredicate.slt r (broadcastInDim S3200000 ![] bcast_S_S3200000 (constantI S_ 32 0#32)))
      (addi r (broadcastInDim S3200000 ![] bcast_S_S3200000 (constantI S_ 32 100000#32))) r)

/-- A per-node table read at the endpoints. -/
def take (x : FArr S100000) (r : IArr S3200000) : FArr S3200000 :=
  Host.gather gather_S100000_S3200000x1_S3200000_n_0_n_n_0_1_1 x (startIdx r)

/-- The degree normaliser: in-degree to the power -1/2. -/
def degNorm (ei : IArr S2x3200000) : FArr S100000 :=
  Host.powf
    (Host.scatterAdd scatter_S100000_S3200000x1_S3200000_n_0_0_1
      (broadcastInDim S100000 ![] bcast_S_S100000 (constant (F := Ideal) S_ .f32 0x00000000#32))
      (broadcastInDim S3200000x1 ![0] bcast_S3200000_S3200000x1_0 (colOf ei))
      (broadcastInDim S3200000 ![] bcast_S_S3200000 (constant (F := Ideal) S_ .f32 0x3F800000#32)))
    (broadcastInDim S100000 ![] bcast_S_S100000 (constant (F := Ideal) S_ .f32 0xBF000000#32))

/-- The two weight columns side by side. -/
def weights (pw qw : FArr S256x1) : FArr S256x2 :=
  concatenate S256x2 1 [⟨S256x1, pw⟩, ⟨S256x1, qw⟩] concatenates_S256x1_S256x1_S256x2_d1

/-- The two biases as a row. -/
def biases (pb qb : FArr S1) : FArr S1x2 :=
  shapeCast S1x2 (concatenate S2 0 [⟨S1, pb⟩, ⟨S1, qb⟩] concatenates_S1_S1_S2_d0) shapeCasts_S2_S1x2

/-- Column 0 of a [100000, 2] array as a flat table. -/
def column0 (pq : FArr S100000x2) : FArr S100000 :=
  shapeCast S100000 (extractStridedSlice S100000x1 ![0, 0] pq slices_S100000x2_S100000x1_0_0) shapeCasts_S100000x1_S100000

/-- Column 1 of a [100000, 2] array as a flat table. -/
def column1 (pq : FArr S100000x2) : FArr S100000 :=
  shapeCast S100000 (extractStridedSlice S100000x1 ![0, 1] pq slices_S100000x2_S100000x1_0_1) shapeCasts_S100000x1_S100000

/-- A flat per-edge array laid out as [25000, 128]. -/
def tiled (a : FArr S3200000) : FArr S25000x128 := shapeCast S25000x128 a shapeCasts_S3200000_S25000x128

variable (m : (ℓ : Loc nD τ sig) → Buf (Elt Ideal) ℓ) (ρ : Dev nD → PrngReg)

/-! ## Entry of the first launch -/

theorem entry_norm (c : Dev nD) : W1 m ρ c (Proc.devRef .tc main_v9) = degNorm (m ((c : Thread nD τ).loc main_arg1)) := by
  show StableHlo.after hostOps0 (W0 m ρ c) (Proc.devRef .tc main_v9) = _
  after_results
  rfl

theorem entry_row (c : Dev nD) : W1 m ρ c (Proc.devRef .tc main_v1) = rowOf (m ((c : Thread nD τ).loc main_arg1)) := by
  show StableHlo.after hostOps0 (W0 m ρ c) (Proc.devRef .tc main_v1) = _
  after_results
  rfl

theorem entry_col (c : Dev nD) : W1 m ρ c (Proc.devRef .tc main_v3) = colOf (m ((c : Thread nD τ).loc main_arg1)) := by
  show StableHlo.after hostOps0 (W0 m ρ c) (Proc.devRef .tc main_v3) = _
  after_results
  rfl

theorem entry_weights (c : Dev nD) : W1 m ρ c (Proc.devRef .tc main_v10)
    = weights (m ((c : Thread nD τ).loc main_arg3)) (m ((c : Thread nD τ).loc main_arg5)) := by
  show StableHlo.after hostOps0 (W0 m ρ c) (Proc.devRef .tc main_v10) = _
  after_results
  rfl

theorem entry_biases (c : Dev nD) : W1 m ρ c (Proc.devRef .tc main_v12)
    = biases (m ((c : Thread nD τ).loc main_arg4)) (m ((c : Thread nD τ).loc main_arg6)) := by
  show StableHlo.after hostOps0 (W0 m ρ c) (Proc.devRef .tc main_v12) = _
  after_results
  rfl

theorem entry_features (c : Dev nD) : W1 m ρ c (Proc.devRef .tc main_arg0) = m ((c : Thread nD τ).loc main_arg0) := by
  show StableHlo.after hostOps0 (W0 m ρ c) (Proc.devRef .tc main_arg0) = _
  after_results

theorem entry_attr (c : Dev nD) : W1 m ρ c (Proc.devRef .tc main_arg2) = m ((c : Thread nD τ).loc main_arg2) := by
  show StableHlo.after hostOps0 (W0 m ρ c) (Proc.devRef .tc main_arg2) = _
  after_results

end Cert.KernelIdeal.Stages

end
-- ==== Proof.EdgeCombine.lean ====
/-
  The second launch: one pass over all edges, laid out as a [25000, 128] array and cut into five blocks of 5000 rows.
  Every block is the same pointwise expression of the four operand blocks at the same rows, so the whole output array
  is one function of the four operand arrays, index by index:
      out[i] = ea[i] * (dr[i] * ac[i] + qr[i]).
  The five blocks tile the array (row r lies in block r / 5000), so this holds at every index.
-/
import proofs.«177552_j25744033972452_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.EdgeCombine

open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The per-edge value: the edge weight times (source normaliser · target table entry + source gate). -/
abbrev combine (dr ac qr ea : S25000x128.Idx → Elt F .f32) : S25000x128.Idx → Elt F .f32 :=
  fun i => FloatOps.mulf (ea i) (FloatOps.addf (FloatOps.mulf (dr i) (ac i)) (qr i))

/-- The body's stored value is that expression of its four loaded blocks (the shape casts in it are identities). -/
theorem body_value (x3 x0 x1 x2 : Vec F S5000x128 .f32) :
    k1_pay1 x3 x0 x1 x2 = mulf x3 (addf (mulf x0 x1) x2) := by
  unfold k1_pay1
  simp only [shapeCast_self]

/-- All five windows move together: at point t each one's block is rows 5000 t … 5000 t + 4999, all 128 lanes. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point t writes back is block t of `combine` of the four operand arrays as the launch finds them. -/
theorem flushed_eq (c : Dev nD) (t : Fin cfg1.N) :
    (dat1 V c).flushed 4 t = ((cfg1.win 4).blk t).view.read (Elt F)
      (combine (V c main_v40) (V c main_v41) (V c main_v42) (V c main_v43)) := by
  show (cfg1.win 4).cut (grid1.coords t) ((dat1 V c).after 4 t) = _
  rw [after1_4]
  unfold out1_4
  rw [View.canon_unit_zero origin]
  simp only [View.ld_unit_zero (S := S5000x128) origin]
  rw [body_value]
  obtain ⟨e00, e01, e10, e11, e20, e21, e30, e31, e40, e41⟩ := block_index t
  funext j
  show FloatOps.mulf (V c main_v43 (((cfg1.win 3).blk t).view.emb j))
      (FloatOps.addf (FloatOps.mulf (V c main_v40 (((cfg1.win 0).blk t).view.emb j)) (V c main_v41 (((cfg1.win 1).blk t).view.emb j)))
        (V c main_v42 (((cfg1.win 2).blk t).view.emb j)))
    = combine (V c main_v40) (V c main_v41) (V c main_v42) (V c main_v43) (((cfg1.win 4).blk t).view.emb j)
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 128 + 1 * (j 1).val = win1_4.index t (1 : Fin 2) * 128 + 1 * (j 1).val; omega
  have h3 : ((cfg1.win 3).blk t).view.emb j = ((cfg1.win 4).blk t).view.emb j := by
    funext a; apply Fin.ext
    match a with
    | ⟨0, _⟩ => show win1_3.index t (0 : Fin 2) * 5000 + 1 * (j 0).val = win1_4.index t (0 : Fin 2) * 5000 + 1 * (j 0).val; omega
    | ⟨1, _⟩ => show win1_3.index t (1 : Fin 2) * 128 + 1 * (j 1).val = win1_4.index t (1 : Fin 2) * 128 + 1 * (j 1).val; omega
  rw [h0, h1, h2, h3]

/-- An index of the output array lies in point t's block iff each coordinate lies in the block's range. -/
theorem mem_block (t : Fin cfg1.N) (i : S25000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v44).slice (win1_4.rect t)).set ↔ _
  rw [View.set_slice_whole, Rect.mem_set_unit]
  exact Iff.rfl

/-- Every index of the output array is in some point's block: row r is in block r / 5000. -/
theorem covered (i : S25000x128.Idx) :
    ∃ t : Fin cfg1.N, (cfg1.win 4).flush t = true ∧ i ∈ ((cfg1.win 4).blk t).view.set := by
  have hi0 : (i 0).val < 25000 := (i 0).isLt
  have hi1 : (i 1).val < 128 := (i 1).isLt
  have hN : cfg1.N = 5 := N_1
  have ht : (i 0).val / 5000 < cfg1.N := by rw [hN]; omega
  obtain ⟨e00, e01, e10, e11, e20, e21, e30, e31, e40, e41⟩ := block_index ⟨(i 0).val / 5000, ht⟩
  refine ⟨⟨(i 0).val / 5000, ht⟩, flush1_4 _, ?_⟩
  rw [mem_block]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]; omega

/-- The output array after the launch is `combine` of the four operand arrays. -/
theorem final (c : Dev nD) :
    (dat1 V c).arrAt 4 cfg1.N = combine (V c main_v40) (V c main_v41) (V c main_v42) (V c main_v43) :=
  (dat1 V c).arrAt_eq_of_cover 4 _ (fun t _ => flushed_eq V c t) covered

end Cert.KernelIdeal.EdgeCombine

end
-- ==== Proof.WholeRun.lean ====
/-
  The whole program as one run with its result named. The program is three stretches of array operations around two
  launches; the contents of every buffer at each of the five boundaries are a fold from the launch memory
  (W0 … W5 of the frame). The run below is the frame's run with one more buffer read off the last boundary: the result
  buffer ends holding what the fold gives it, W5 at that buffer, and the seven arguments end as launched.
-/
import proofs.«177552_j25744033972452_2_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.WholeRun

open Cert.KernelIdeal Cert.KernelIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without fault; the result buffer ends at the last boundary's contents
    and each argument as launched. -/
theorem run : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.WholeRun

end
-- ==== Proof.KernelValue.lean ====
/-
  The result buffer of the whole program as one function of the seven arguments (extended reals).

  Following the contents through the program: the first launch leaves the gate array and touches nothing else; the
  stretch between the launches forms, per edge e, the four streams
      dr[e] = degNorm at e's source,   ac[e] = (degNorm · gate p) at e's target,   qr[e] = gate q at e's source,   ea[e],
  each laid out as [25000, 128]; the second launch leaves  ea · (dr · ac + qr)  in that layout; the last operation lays
  it out flat again. Laying an array out as [25000, 128] and flat again is the identity, and the launch's expression is
  pointwise, so per edge the result is   ea[e] · (dr[e] · ac[e] + qr[e]).
-/
import proofs.«177552_j25744033972452_2_alg».proof.Proof.Stages
import proofs.«177552_j25744033972452_2_alg».proof.Proof.EdgeCombine
import proofs.«177552_j25744033972452_2_alg».proof.Proof.WholeRun
import Idealize.ShloMosaic.Lib.StableHlo.Run
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Stages Idealize.ShloMosaic.StableHlo

variable (m : (ℓ : Loc nD τ sig) → Buf (Elt Ideal) ℓ) (ρ : Dev nD → PrngReg)

/-- Both gates of every node, from the arguments. -/
def gateArray (x : FArr S100000x256) (pw : FArr S256x1) (pb : FArr S1) (qw : FArr S256x1) (qb : FArr S1) : FArr S100000x2 :=
  GateLinear.gates x (weights pw qw) (biases pb qb)

/-! ## Exit of the first launch -/

theorem exit_gates (c : Dev nD) : W2 m ρ c (Proc.devRef .tc main_v13)
    = gateArray (m ((c : Thread nD τ).loc main_arg0)) (m ((c : Thread nD τ).loc main_arg3)) (m ((c : Thread nD τ).loc main_arg4)) (m ((c : Thread nD τ).loc main_arg5)) (m ((c : Thread nD τ).loc main_arg6)) := by
  refine (W2_arr m ρ c 3).trans ?_
  rw [GateLinear.final (V1 m ρ) c]
  show GateLinear.gates (W1 m ρ c (Proc.devRef .tc main_arg0)) (W1 m ρ c (Proc.devRef .tc main_v10)) (W1 m ρ c (Proc.devRef .tc main_v12)) = _
  rw [entry_features, entry_weights, entry_biases]
  rfl

theorem exit_norm (c : Dev nD) : W2 m ρ c (Proc.devRef .tc main_v9) = degNorm (m ((c : Thread nD τ).loc main_arg1)) :=
  (W2_of_ne m ρ c main_v9 (by decide)).trans (entry_norm m ρ c)

theorem exit_row (c : Dev nD) : W2 m ρ c (Proc.devRef .tc main_v1) = rowOf (m ((c : Thread nD τ).loc main_arg1)) :=
  (W2_of_ne m ρ c main_v1 (by decide)).trans (entry_row m ρ c)

theorem exit_col (c : Dev nD) : W2 m ρ c (Proc.devRef .tc main_v3) = colOf (m ((c : Thread nD τ).loc main_arg1)) :=
  (W2_of_ne m ρ c main_v3 (by decide)).trans (entry_col m ρ c)

theorem exit_attr (c : Dev nD) : W2 m ρ c (Proc.devRef .tc main_arg2) = (m ((c : Thread nD τ).loc main_arg2)) :=
  (W2_of_ne m ρ c main_arg2 (by decide)).trans (entry_attr m ρ c)

/-! ## Entry of the second launch: the four per-edge streams -/

/-- The source normaliser per edge. -/
def srcNorm (ei : IArr S2x3200000) : FArr S3200000 := take (degNorm ei) (rowOf ei)
/-- The target table per edge: normaliser times the first gate, read at the target. -/
def tgtTable (ei : IArr S2x3200000) (pq : FArr S100000x2) : FArr S3200000 :=
  take (mulf (F := Ideal) (s := S100000) (φ := .f32) (degNorm ei) (column0 pq)) (colOf ei)
/-- The second gate per edge, read at the source. -/
def srcGate (ei : IArr S2x3200000) (pq : FArr S100000x2) : FArr S3200000 := take (column1 pq) (rowOf ei)

set_option maxRecDepth 65536 in
set_option maxHeartbeats 4000000 in
theorem mid_norm (c : Dev nD) : W3 m ρ c (Proc.devRef .tc main_v40) = tiled (srcNorm (m ((c : Thread nD τ).loc main_arg1))) := by
  show StableHlo.after hostOps1 (W2 m ρ c) (Proc.devRef .tc main_v40) = _
  after_results_simp
  rw [exit_norm, exit_row]
  rfl

set_option maxRecDepth 65536 in
set_option maxHeartbeats 4000000 in
theorem mid_table (c : Dev nD) : W3 m ρ c (Proc.devRef .tc main_v41)
    = tiled (tgtTable (m ((c : Thread nD τ).loc main_arg1)) (gateArray (m ((c : Thread nD τ).loc main_arg0)) (m ((c : Thread nD τ).loc main_arg3)) (m ((c : Thread nD τ).loc main_arg4)) (m ((c : Thread nD τ).loc main_arg5)) (m ((c : Thread nD τ).loc main_arg6)))) := by
  show StableHlo.after hostOps1 (W2 m ρ c) (Proc.devRef .tc main_v41) = _
  after_results_simp
  rw [exit_norm, exit_col, exit_gates]
  rfl

set_option maxRecDepth 65536 in
set_option maxHeartbeats 4000000 in
theorem mid_gate (c : Dev nD) : W3 m ρ c (Proc.devRef .tc main_v42)
    = tiled (srcGate (m ((c : Thread nD τ).loc main_arg1)) (gateArray (m ((c : Thread nD τ).loc main_arg0)) (m ((c : Thread nD τ).loc main_arg3)) (m ((c : Thread nD τ).loc main_arg4)) (m ((c : Thread nD τ).loc main_arg5)) (m ((c : Thread nD τ).loc main_arg6)))) := by
  show StableHlo.after hostOps1 (W2 m ρ c) (Proc.devRef .tc main_v42) = _
  after_results_simp
  rw [exit_row, exit_gates]
  rfl

set_option maxRecDepth 65536 in
set_option maxHeartbeats 4000000 in
theorem mid_attr (c : Dev nD) : W3 m ρ c (Proc.devRef .tc main_v43) = tiled (m ((c : Thread nD τ).loc main_arg2)) := by
  show StableHlo.after hostOps1 (W2 m ρ c) (Proc.devRef .tc main_v43) = _
  after_results_simp
  rw [exit_attr]
  rfl

/-! ## The second launch and the last reshape -/

/-- The per-edge value in the flat layout. -/
def edgeValue (dr ac qr ea : S3200000.Idx → Elt Ideal .f32) : S3200000.Idx → Elt Ideal .f32 :=
  fun e => FloatOps.mulf (F := Ideal) (φ := .f32) (ea e) (FloatOps.addf (F := Ideal) (φ := .f32) (FloatOps.mulf (F := Ideal) (φ := .f32) (dr e) (ac e)) (qr e))

/-- A flat per-edge array laid out as [25000, 128] (the stages' `tiled`, with the array types spelt as index functions). -/
abbrev lay (a : S3200000.Idx → Elt Ideal .f32) : S25000x128.Idx → Elt Ideal .f32 := tiled a

/-- Laid out as [25000, 128], combined pointwise and laid out flat again: the pointwise combination of the flat arrays. -/
theorem untile (dr ac qr ea : S3200000.Idx → Elt Ideal .f32) :
    shapeCast S3200000 (EdgeCombine.combine (lay dr) (lay ac) (lay qr) (lay ea)) shapeCasts_S25000x128_S3200000
      = edgeValue dr ac qr ea := by
  funext e
  show FloatOps.mulf (F := Ideal) (φ := .f32) (shapeCast S3200000 (lay ea) shapeCasts_S25000x128_S3200000 e)
      (FloatOps.addf (F := Ideal) (φ := .f32) (FloatOps.mulf (F := Ideal) (φ := .f32) (shapeCast S3200000 (lay dr) shapeCasts_S25000x128_S3200000 e)
        (shapeCast S3200000 (lay ac) shapeCasts_S25000x128_S3200000 e)) (shapeCast S3200000 (lay qr) shapeCasts_S25000x128_S3200000 e)) = _
  unfold lay tiled
  simp only [shapeCast_shapeCast]
  rfl

/-- The result buffer's final contents, from the arguments. -/
def result (x : FArr S100000x256) (ei : IArr S2x3200000) (ea : FArr S3200000) (pw : FArr S256x1) (pb : FArr S1)
    (qw : FArr S256x1) (qb : FArr S1) : FArr S3200000 :=
  edgeValue (srcNorm ei) (tgtTable ei (gateArray x pw pb qw qb)) (srcGate ei (gateArray x pw pb qw qb)) ea

theorem last_boundary (c : Dev nD) : W5 m ρ c (Proc.devRef .tc main_v45)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v45) = _
  after_results
  have h44 : W4 m ρ c (Proc.devRef .tc main_v44) = (dat1 (V3 m ρ) c).arrAt 4 cfg1.N := W4_arr m ρ c 4
  rw [h44, EdgeCombine.final (V3 m ρ) c]
  show (fun i => shapeCast S3200000 (EdgeCombine.combine (W3 m ρ c (Proc.devRef .tc main_v40)) (W3 m ρ c (Proc.devRef .tc main_v41))
      (W3 m ρ c (Proc.devRef .tc main_v42)) (W3 m ρ c (Proc.devRef .tc main_v43))) shapeCasts_S25000x128_S3200000 i) = _
  rw [mid_norm, mid_table, mid_gate, mid_attr]
  exact untile _ _ _ _

/-- THE RUN, READ: every weakly fair execution terminates without fault, the result buffer ends at `result` of the
    arguments and the arguments end as launched. -/
theorem run : θ_run defs (onTc (τ := τ) (main (F := Ideal))) ⟨m, fun _ => 0, ρ⟩ (fun r => ∀ c : Dev nD,
      r.2.mem ((c.tc : Thread nD τ).loc main_v45)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (last_boundary m ρ c), (h c).2⟩) (WholeRun.run m ρ)

end Cert.KernelIdeal.KernelValue

end
-- ==== Proof.EdgeSpec.lean ====
/-
  The mathematics shared by the two programs, stated with no program in sight.

  * A node's gate: relu of (row n of the feature matrix) · (a weight column) + a bias,
        gate x w b n = max (Σ_k x[n,k] · w[k,0] + b[0]) 0.
    With finite features, weights and bias it is a finite real.
  * The per-edge value. With r, c the (possibly infinite) degree normalisers of the edge's two endpoints,
    p, q the two gates and w the edge weight, one program computes  w · (r · (c · p) + q)  and the other
    ((r · w) · c) · p + q · w.  On the extended reals multiplication is commutative and associative without
    condition; distributing the finite factor w over the sum  r·(c·p) + q  is sound because w and q are finite reals
    (the sum's other term may be ±∞: the three cases of its value, by the sign of w).
-/
import Idealize.ShloMosaic.PureOps.Ideal
import Idealize.ShloMosaic.Lib.ValueIdx

noncomputable section

namespace Cert.EdgeSpec

open Idealize.ShloMosaic Idealize.ShloMosaic.ValueIdx

/-- An extended real that is a real number. -/
def IsReal (a : EReal) : Prop := ∃ r : ℝ, a = (r : EReal)

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.zero : IsReal 0 := ⟨0, EReal.coe_zero.symm⟩

theorem IsReal.max {a b : EReal} (ha : IsReal a) (hb : IsReal b) : IsReal (max a b) := by
  rcases max_choice a b with h | h <;> rw [h] <;> assumption

/-- A finite sum of reals is a real. -/
theorem IsReal.sum {ι : Type*} (s : Finset ι) (f : ι → EReal) (h : ∀ i, IsReal (f i)) : IsReal (∑ i ∈ s, f i) := by
  classical
  induction s using Finset.induction_on with
  | empty => rw [Finset.sum_empty]; exact IsReal.zero
  | insert a s ha ih => rw [Finset.sum_insert ha]; exact (h a).add ih

/-- One gate of node n. -/
def gate (x : (⟨2, ![100000, 256]⟩ : Shape).Idx → EReal) (w : (⟨2, ![256, 1]⟩ : Shape).Idx → EReal)
    (b : (⟨1, ![1]⟩ : Shape).Idx → EReal) (n : Fin 100000) : EReal :=
  max ((∑ k : Fin 256, x (ix2 n k) * w (ix2 k (0 : Fin 1))) + b (ix1 (0 : Fin 1))) 0

/-- Finite features, weights and bias give a finite gate. -/
theorem gate_isReal (x : (⟨2, ![100000, 256]⟩ : Shape).Idx → EReal) (w : (⟨2, ![256, 1]⟩ : Shape).Idx → EReal)
    (b : (⟨1, ![1]⟩ : Shape).Idx → EReal) (hx : ∀ i, IsReal (x i)) (hw : ∀ i, IsReal (w i)) (hb : ∀ i, IsReal (b i))
    (n : Fin 100000) : IsReal (gate x w b n) :=
  (((IsReal.sum _ _ fun k => (hx _).mul (hw _)).add (hb _))).max IsReal.zero

/-- A finite factor distributes over a sum whose second term is finite, whatever the first term is. -/
theorem coe_mul_add_coe (w q : ℝ) (X : EReal) : (w : EReal) * (X + q) = w * X + w * q := by
  rcases lt_trichotomy w 0 with hw | rfl | hw
  · induction X using EReal.rec with
    | bot => simp [EReal.coe_mul_bot_of_neg hw, ← EReal.coe_mul]
    | coe x => rw [← EReal.coe_add, ← EReal.coe_mul, ← EReal.coe_mul, ← EReal.coe_mul, ← EReal.coe_add, mul_add]
    | top => simp [EReal.coe_mul_top_of_neg hw, ← EReal.coe_mul]
  · simp
  · exact EReal.left_distrib_of_nonneg_of_ne_top (EReal.coe_nonneg.2 hw.le) (EReal.coe_ne_top w) X q

/-- The two arrangements of the per-edge value agree when the edge weight and the source gate are finite. -/
theorem rearrange (r c p q w : EReal) (hq : IsReal q) (hw : IsReal w) :
    w * (r * (c * p) + q) = ((r * w) * c) * p + q * w := by
  obtain ⟨q', rfl⟩ := hq
  obtain ⟨w', rfl⟩ := hw
  rw [coe_mul_add_coe]
  congr 1
  · ac_rfl
  · exact mul_comm _ _

end Cert.EdgeSpec

end
-- ==== Proof.FiniteArgs.lean ====
/-
  The precondition says, for each floating-point argument a, that every entry satisfies |a[i]| < +∞,
  and it conjoins the six statements. On the extended reals |x| is max x (-x), and +∞ is the top element.
  For x = ⊥ and for x = ⊤ the absolute value is ⊤, which is not below ⊤; so an entry whose absolute value
  is below ⊤ is neither of the two infinities, that is, it is a real number.

  The conjunction of "all entries" statements is a chain of `and`s of one-bit words, each word the `and` over
  all entries of the bit of the comparison. A chain of `and`s is 1 exactly when every link is 1, and an `and`
  over all entries is 1 only if the bit is 1 at every entry. So the precondition gives the comparison at every
  entry of every argument, and with it that every entry is a real number.
-/
import proofs.«177552_j25744033972452_2_alg».proof.Defs
import proofs.«177552_j25744033972452_2_alg».proof.Proof.EdgeSpec
import Idealize.ShloMosaic.Lib.ReduceAll
import Idealize.ShloMosaic.Lib.ValueIdx

set_option maxRecDepth 16384

noncomputable section

open Idealize.ShloMosaic Idealize.ShloMosaic.TcCoe Idealize.SL.Sem

namespace Cert.KernelIdeal.FiniteArgs

open Cert.EdgeSpec (IsReal)

/-- The shape with no axes has exactly one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value is below +∞ is a real number. -/
theorem isReal_of_abs_lt_top (x : EReal) (h : max x (-x) < (⊤ : EReal)) : IsReal x := by
  induction x using EReal.rec with
  | bot => simp at h
  | coe r => exact ⟨r, rfl⟩
  | top => simp at h

/-- The same, with the comparison read as the one-bit word the program computes. -/
theorem isReal_of_cmp (x : EReal)
    (h : FloatOps.cmpf (F := Ideal) (φ := .f32) .olt (FloatOps.hostAbsf (F := Ideal) (φ := .f32) x)
      (FloatOps.ofBits (F := Ideal) .f32 0x7F800000#32) = 1#1) : IsReal x := by
  change BitVec.ofBool (decide (max x (-x) < Ideal.ofBits .f32 0x7F800000#32)) = 1#1 at h
  rw [inf_eq_top] at h
  refine isReal_of_abs_lt_top x ?_
  by_contra hn
  simp [hn] at h

/-- One argument: if the `and` over all entries of the bit "|a[i]| < +∞" is 1, every entry of a is a real number. -/
theorem all_isReal {s : Shape} {axes : List (Fin s.rank)} (a : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ValueIdx.ix0 = 1#1)
    (i : s.Idx) : IsReal (a i) :=
  isReal_of_cmp (a i) (Host.reduce_andi_all _ _ hr hu ValueIdx.ix0 e i)

/-- The precondition makes every entry of the four floating-point arguments read here a real number. -/
theorem of_pre [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.EdgeSpec.IsReal (m ((c.tc : Thread Cert.KernelIdeal.nD Cert.KernelIdeal.τ).loc Cert.KernelIdeal.main_arg0) i))
    ∧ (∀ i, Cert.EdgeSpec.IsReal (m ((c.tc : Thread Cert.KernelIdeal.nD Cert.KernelIdeal.τ).loc Cert.KernelIdeal.main_arg2) i))
    ∧ (∀ i, Cert.EdgeSpec.IsReal (m ((c.tc : Thread Cert.KernelIdeal.nD Cert.KernelIdeal.τ).loc Cert.KernelIdeal.main_arg5) i))
    ∧ (∀ i, Cert.EdgeSpec.IsReal (m ((c.tc : Thread Cert.KernelIdeal.nD Cert.KernelIdeal.τ).loc Cert.KernelIdeal.main_arg6) i)) := by
  have e := congrFun (h c) ValueIdx.ix0
  dsimp only [Cert.Pre_finite_inputs.fn, Cert.Pre_finite_inputs.fn_part1, andi] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨all_isReal _ _ _ _ e0, all_isReal _ _ _ _ e2, all_isReal _ _ _ _ e5, all_isReal _ _ _ _ e6⟩

end Cert.KernelIdeal.FiniteArgs

end
-- ==== Proof.KernelGates.lean ====
/-
  The first launch computes both gates at once from the two weight columns set side by side and the two biases set in a
  row. Read back one column at a time, its result is the specification's gate with that column's own weights and bias:
      column 0 at node n = gate x p_w p_b n,      column 1 at node n = gate x q_w q_b n.
  Column j of the side-by-side weights is the j-th weight array; entry j of the bias row is the j-th bias; the literal
  zero of the maximum is 0.
-/
import proofs.«177552_j25744033972452_2_alg».proof.Proof.Stages
import proofs.«177552_j25744033972452_2_alg».proof.Proof.EdgeSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.KernelGates

open Cert.KernelIdeal Cert.KernelIdeal.Gen Cert.KernelIdeal.Stages Cert.KernelIdeal.GateLinear Idealize.ShloMosaic.ValueIdx

/-- Column 0 of the side-by-side weights is the first weight array. -/
theorem weights_left (pw qw : FArr S256x1) (k : Fin 256) : weights pw qw (ix2 k (0 : Fin 2)) = pw (ix2 k (0 : Fin 1)) := by
  unfold weights
  refine concatenate_pair_apply_left (1 : Fin S256x2.rank) pw qw concatenates_S256x1_S256x1_S256x2_d1 (ix2 k (0 : Fin 2)) rfl (ix2 k (0 : Fin 1)) fun b => ?_
  match b with
  | ⟨0, _⟩ => rfl
  | ⟨1, _⟩ => rfl

/-- Column 1 of the side-by-side weights is the second weight array. -/
theorem weights_right (pw qw : FArr S256x1) (k : Fin 256) : weights pw qw (ix2 k (1 : Fin 2)) = qw (ix2 k (0 : Fin 1)) := by
  unfold weights
  refine concatenate_pair_apply_right (1 : Fin S256x2.rank) pw qw concatenates_S256x1_S256x1_S256x2_d1 (ix2 k (1 : Fin 2)) rfl rfl (ix2 k (0 : Fin 1)) (fun b hb => ?_) rfl
  match b with
  | ⟨0, _⟩ => rfl
  | ⟨1, _⟩ => exact absurd rfl hb

/-- Entry 0 of the bias row is the first bias. -/
theorem biases_left (pb qb : FArr S1) : biases pb qb (ix2 (0 : Fin 1) (0 : Fin 2)) = pb (ix1 (0 : Fin 1)) := by
  unfold biases
  rw [shapeCast_a_1a_apply]
  refine concatenate_pair_apply_left (0 : Fin S2.rank) pb qb concatenates_S1_S1_S2_d0 (ix1 (0 : Fin 2)) rfl (ix1 (0 : Fin 1)) fun b => ?_
  match b with
  | ⟨0, _⟩ => rfl

/-- Entry 1 of the bias row is the second bias. -/
theorem biases_right (pb qb : FArr S1) : biases pb qb (ix2 (0 : Fin 1) (1 : Fin 2)) = qb (ix1 (0 : Fin 1)) := by
  unfold biases
  rw [shapeCast_a_1a_apply]
  refine concatenate_pair_apply_right (0 : Fin S2.rank) pb qb concatenates_S1_S1_S2_d0 (ix1 (1 : Fin 2)) rfl rfl (ix1 (0 : Fin 1)) (fun b hb => ?_) rfl
  match b with
  | ⟨0, _⟩ => exact absurd rfl hb

/-- Column j of a [100000, 2] array as a flat table, at node n, is the array at (n, j). -/
theorem column0_at (pq : FArr S100000x2) (n : Fin 100000) : column0 pq (ix1 n) = pq (ix2 n (0 : Fin 2)) := by
  unfold column0
  refine (shapeCast_apply _ shapeCasts_S100000x1_S100000 (ix1 n) (ix2 n (0 : Fin 1)) ?_).trans ?_
  · rw [Shape.rowMajor_val_two, Shape.rowMajor_val_one]; show n.val * 1 + 0 = n.val; omega
  · exact slice2_axis1_apply 0 pq slices_S100000x2_S100000x1_0_0 n (0 : Fin 1) (0 : Fin 2) rfl

theorem column1_at (pq : FArr S100000x2) (n : Fin 100000) : column1 pq (ix1 n) = pq (ix2 n (1 : Fin 2)) := by
  unfold column1
  refine (shapeCast_apply _ shapeCasts_S100000x1_S100000 (ix1 n) (ix2 n (0 : Fin 1)) ?_).trans ?_
  · rw [Shape.rowMajor_val_two, Shape.rowMajor_val_one]; show n.val * 1 + 0 = n.val; omega
  · exact slice2_axis1_apply 1 pq slices_S100000x2_S100000x1_0_1 n (0 : Fin 1) (1 : Fin 2) rfl

/-- The first column of the launch's result is the gate of the first weights and bias. -/
theorem gateP_at (x : FArr S100000x256) (pw qw : FArr S256x1) (pb qb : FArr S1) (n : Fin 100000) :
    column0 (gates x (weights pw qw) (biases pb qb)) (ix1 n) = Cert.EdgeSpec.gate x pw pb n := by
  rw [column0_at]
  unfold gates gateAt Cert.EdgeSpec.gate
  show max ((∑ k : Fin 256, x (ix2 n k) * weights pw qw (ix2 k (0 : Fin 2))) + biases pb qb (ix2 (0 : Fin 1) (0 : Fin 2)))
      (Ideal.ofBits .f32 0x00000000#32) = _
  rw [biases_left, Ideal.ofBits_zero_f32]
  congr 2
  exact Finset.sum_congr rfl fun k _ => by rw [weights_left]

/-- The second column of the launch's result is the gate of the second weights and bias. -/
theorem gateQ_at (x : FArr S100000x256) (pw qw : FArr S256x1) (pb qb : FArr S1) (n : Fin 100000) :
    column1 (gates x (weights pw qw) (biases pb qb)) (ix1 n) = Cert.EdgeSpec.gate x qw qb n := by
  rw [column1_at]
  unfold gates gateAt Cert.EdgeSpec.gate
  show max ((∑ k : Fin 256, x (ix2 n k) * weights pw qw (ix2 k (1 : Fin 2))) + biases pb qb (ix2 (0 : Fin 1) (1 : Fin 2)))
      (Ideal.ofBits .f32 0x00000000#32) = _
  rw [biases_right, Ideal.ofBits_zero_f32]
  congr 2
  exact Finset.sum_congr rfl fun k _ => by rw [weights_right]

end Cert.KernelIdeal.KernelGates

end
-- ==== Proof.RefGates.lean ====
/-
  The reference computes each of its two per-node gate tables as
      reshape (maximum (x · w + broadcast b, splat 0)) : [100000],
  with x the [100000, 256] feature matrix, w a [256, 1] weight column and b a one-entry bias.
  Read at node n this is the specification's gate:
      max (Σ_k x[n,k] · w[k,0] + b[0]) 0.
  The reshape from [100000, 1] to [100000] reads entry (n, 0) at n; the product's entry (n, 0) is the sum over k of
  x[n,k] · w[k,0]; the bias broadcast reads b[0] at every entry; the splat is the number 0 at every entry.
  What is left to check is that the index maps these operations carry are the plain indices (n, k), (k, 0), (0)
  and (n, 0): they differ from them only by a division by 1 and by the spelling of a coordinate.
-/
import proofs.«177552_j25744033972452_2_alg».proof.Proof.Gen.ReferenceIdeal.Read
import proofs.«177552_j25744033972452_2_alg».proof.Proof.EdgeSpec

set_option maxRecDepth 16384

noncomputable section

open Idealize.ShloMosaic Idealize.ShloMosaic.TcCoe Idealize.SL.Sem

namespace Cert.ReferenceIdeal.RefGates

open Cert.ReferenceIdeal Cert.ReferenceIdeal.Read Idealize.ShloMosaic.ValueIdx

/-! ## The index maps, as plain indices -/

/-- Entry n of the reshaped table is entry (n, 0) of the [100000, 1] array (first gate). -/
theorem reshapeP (n : Fin 100000) : idx_main_v31 (ix1 n) = ix2 n (0 : Fin 1) :=
  funext fun a => Fin.ext (by
    match a with
    | ⟨0, _⟩ => show n.val / 1 = n.val; omega
    | ⟨1, _⟩ => rfl)

/-- Entry n of the reshaped table is entry (n, 0) of the [100000, 1] array (second gate). -/
theorem reshapeQ (n : Fin 100000) : idx_main_v37 (ix1 n) = ix2 n (0 : Fin 1) :=
  funext fun a => Fin.ext (by
    match a with
    | ⟨0, _⟩ => show n.val / 1 = n.val; omega
    | ⟨1, _⟩ => rfl)

/-- Term k of entry (n, 0) of the product reads the matrix at (n, k) (first gate). -/
theorem lidxP (n : Fin 100000) (k : Fin 256) : lidx_main_v26 (ix2 n (0 : Fin 1)) k = ix2 n k :=
  funext fun a => Fin.ext (by
    match a with
    | ⟨0, _⟩ => rfl
    | ⟨1, _⟩ => rfl)

/-- Term k of entry (n, 0) of the product reads the column at (k, 0) (first gate). -/
theorem ridxP (n : Fin 100000) (k : Fin 256) : ridx_main_v26 (ix2 n (0 : Fin 1)) k = ix2 k (0 : Fin 1) :=
  funext fun a => Fin.ext (by
    match a with
    | ⟨0, _⟩ => rfl
    | ⟨1, _⟩ => rfl)

/-- Term k of entry (n, 0) of the product reads the matrix at (n, k) (second gate). -/
theorem lidxQ (n : Fin 100000) (k : Fin 256) : lidx_main_v32 (ix2 n (0 : Fin 1)) k = ix2 n k :=
  funext fun a => Fin.ext (by
    match a with
    | ⟨0, _⟩ => rfl
    | ⟨1, _⟩ => rfl)

/-- Term k of entry (n, 0) of the product reads the column at (k, 0) (second gate). -/
theorem ridxQ (n : Fin 100000) (k : Fin 256) : ridx_main_v32 (ix2 n (0 : Fin 1)) k = ix2 k (0 : Fin 1) :=
  funext fun a => Fin.ext (by
    match a with
    | ⟨0, _⟩ => rfl
    | ⟨1, _⟩ => rfl)

/-- The broadcast bias reads its one entry, whatever the entry asked for (first gate). -/
theorem biasP (j : S100000x1.Idx) : idx_main_v27 (idx_main_v28 j) = ix1 (0 : Fin 1) :=
  funext fun a => Fin.ext (by
    match a with
    | ⟨0, _⟩ => rfl)

/-- The broadcast bias reads its one entry, whatever the entry asked for (second gate). -/
theorem biasQ (j : S100000x1.Idx) : idx_main_v33 (idx_main_v34 j) = ix1 (0 : Fin 1) :=
  funext fun a => Fin.ext (by
    match a with
    | ⟨0, _⟩ => rfl)

/-! ## The two gate tables at a node -/

/-- The first gate table at node n is the gate of the features with the first weight column and bias. -/
theorem gateP_at (x0 : (⟨S100000x256, .f32⟩ : BufTy).Contents (Elt Ideal)) (x3 : (⟨S256x1, .f32⟩ : BufTy).Contents (Elt Ideal)) (x4 : (⟨S1, .f32⟩ : BufTy).Contents (Elt Ideal)) (n : Fin 100000) :
    Cert.ReferenceIdeal.Read.val_main_v31 (F := Ideal) x0 x3 x4 (ValueIdx.ix1 n) = Cert.EdgeSpec.gate x0 x3 x4 n := by
  rw [val_main_v31_apply, reshapeP, val_main_v30_apply, val_main_v29_apply, val_main_v26_apply, val_main_v28_apply,
    val_main_v27_apply, biasP, val_main_call0_v0_apply, val_main_call0_cst_apply]
  unfold Cert.EdgeSpec.gate
  show max ((∑ k : Fin 256, x0 (lidx_main_v26 (ix2 n (0 : Fin 1)) k) * x3 (ridx_main_v26 (ix2 n (0 : Fin 1)) k))
      + x4 (ix1 (0 : Fin 1))) (Ideal.ofBits .f32 0x00000000#32)
    = max ((∑ k : Fin 256, x0 (ix2 n k) * x3 (ix2 k (0 : Fin 1))) + x4 (ix1 (0 : Fin 1))) 0
  rw [Ideal.ofBits_zero_f32]
  refine congrArg (fun s => max (s + x4 (ix1 (0 : Fin 1))) 0) (Finset.sum_congr rfl fun k _ => ?_)
  rw [lidxP, ridxP]

/-- The second gate table at node n is the gate of the features with the second weight column and bias. -/
theorem gateQ_at (x0 : (⟨S100000x256, .f32⟩ : BufTy).Contents (Elt Ideal)) (x5 : (⟨S256x1, .f32⟩ : BufTy).Contents (Elt Ideal)) (x6 : (⟨S1, .f32⟩ : BufTy).Contents (Elt Ideal)) (n : Fin 100000) :
    Cert.ReferenceIdeal.Read.val_main_v37 (F := Ideal) x0 x5 x6 (ValueIdx.ix1 n) = Cert.EdgeSpec.gate x0 x5 x6 n := by
  rw [val_main_v37_apply, reshapeQ, val_main_v36_apply, val_main_v35_apply, val_main_v32_apply, val_main_v34_apply,
    val_main_v33_apply, biasQ, val_main_call1_v0_apply, val_main_call1_cst_apply]
  unfold Cert.EdgeSpec.gate
  show max ((∑ k : Fin 256, x0 (lidx_main_v32 (ix2 n (0 : Fin 1)) k) * x5 (ridx_main_v32 (ix2 n (0 : Fin 1)) k))
      + x6 (ix1 (0 : Fin 1))) (Ideal.ofBits .f32 0x00000000#32)
    = max ((∑ k : Fin 256, x0 (ix2 n k) * x5 (ix2 k (0 : Fin 1))) + x6 (ix1 (0 : Fin 1))) 0
  rw [Ideal.ofBits_zero_f32]
  refine congrArg (fun s => max (s + x6 (ix1 (0 : Fin 1))) 0) (Finset.sum_congr rfl fun k _ => ?_)
  rw [lidxQ, ridxQ]

end Cert.ReferenceIdeal.RefGates

end
-- ==== Proof.Bridge.lean ====
/-
  The two programs compute one function of the arguments when the features, the edge weights and the second gate's
  parameters are finite.

  Fix an edge e, and let s and t be the table positions its source and target endpoints select (both programs wrap a
  negative endpoint and clamp it in the same way: they apply the same operations to the same edge list, so s and t are
  the same on both sides, and so is the degree normaliser d). Then
      reference:  ((d[s] · w) · d[t]) · P[t] + Q[s] · w          kernel:  w · (d[s] · (d[t] · P'[t]) + Q'[s])
  with w the edge's weight, P, Q the reference's two gate tables and P', Q' the two columns of the kernel's first launch.
  Both P, P' are the specification's gate with the first weights and bias, both Q, Q' with the second ones; Q[s] and w
  are finite reals; the rearrangement law of the specification closes the equation. (d[s], d[t] may be +∞: a node
  nobody points at.)
-/
import proofs.«177552_j25744033972452_2_alg».proof.Proof.KernelValue
import proofs.«177552_j25744033972452_2_alg».proof.Proof.KernelGates
import proofs.«177552_j25744033972452_2_alg».proof.Proof.RefGates
import proofs.«177552_j25744033972452_2_alg».proof.Proof.EdgeSpec
import proofs.«177552_j25744033972452_2_alg».proof.Proof.Gen.ReferenceIdeal.Read
import Idealize.ShloMosaic.Lib.ValueIdx

set_option maxRecDepth 16384

noncomputable section

open Idealize.ShloMosaic Idealize.ShloMosaic.TcCoe Idealize.SL.Sem
open Idealize.ShloMosaic.Pipeline (Dat)

namespace Cert.Bridge

open Idealize.ShloMosaic.ValueIdx
open Cert.KernelIdeal.Stages Cert.KernelIdeal.KernelValue Cert.EdgeSpec

/-- A table read at the wrapped endpoints, at edge e, is the table at the position the endpoint selects. -/
theorem take_at (x : FArr Cert.KernelIdeal.S100000) (r : IArr Cert.KernelIdeal.S3200000) (e : Cert.KernelIdeal.S3200000.Idx) :
    take x r e = x (Cert.KernelIdeal.gather_S100000_S3200000x1_S3200000_n_0_n_n_0_1_1.operandIdx e (startIdx r)) := by
  unfold take Host.gather
  rfl

/-- THE PER-EDGE LAW, over arbitrary tables: d the normaliser, P and Q the gate tables on one side, P' and Q' on the other,
    agreeing node by node; Q finite and the edge weights finite. -/
theorem edge_law (d P Q P' Q' : FArr Cert.KernelIdeal.S100000) (row col : IArr Cert.KernelIdeal.S3200000) (w : FArr Cert.KernelIdeal.S3200000)
    (hP : ∀ n : Fin 100000, P' (ix1 n) = P (ix1 n)) (hQ : ∀ n : Fin 100000, Q' (ix1 n) = Q (ix1 n))
    (hQr : ∀ n : Fin 100000, IsReal (Q (ix1 n))) (hw : ∀ e, IsReal (w e)) :
    addf (F := Ideal) (s := Cert.KernelIdeal.S3200000) (φ := .f32) (mulf (F := Ideal) (s := Cert.KernelIdeal.S3200000) (φ := .f32) (mulf (F := Ideal) (s := Cert.KernelIdeal.S3200000) (φ := .f32) (mulf (F := Ideal) (s := Cert.KernelIdeal.S3200000) (φ := .f32) (take d row) w) (take d col)) (take P col))
        (mulf (F := Ideal) (s := Cert.KernelIdeal.S3200000) (φ := .f32) (take Q row) w)
      = edgeValue (take d row) (take (mulf (F := Ideal) (s := Cert.KernelIdeal.S100000) (φ := .f32) d P') col) (take Q' row) w := by
  funext e
  show FloatOps.addf (F := Ideal) (φ := .f32) (FloatOps.mulf (F := Ideal) (φ := .f32) (FloatOps.mulf (F := Ideal) (φ := .f32) (FloatOps.mulf (F := Ideal) (φ := .f32) (take d row e) (w e)) (take d col e)) (take P col e)) (FloatOps.mulf (F := Ideal) (φ := .f32) (take Q row e) (w e))
    = FloatOps.mulf (F := Ideal) (φ := .f32) (w e) (FloatOps.addf (F := Ideal) (φ := .f32) (FloatOps.mulf (F := Ideal) (φ := .f32) (take d row e) (take (mulf (F := Ideal) (s := Cert.KernelIdeal.S100000) (φ := .f32) d P') col e)) (take Q' row e))
  rw [take_at d row, take_at d col, take_at P col, take_at Q row, take_at Q' row, take_at (mulf (F := Ideal) (s := Cert.KernelIdeal.S100000) (φ := .f32) d P') col]
  obtain ⟨n, hn⟩ : ∃ n : Fin 100000, Cert.KernelIdeal.gather_S100000_S3200000x1_S3200000_n_0_n_n_0_1_1.operandIdx e (startIdx row) = ix1 n := ⟨_, eq_ix1 _⟩
  obtain ⟨k, hk⟩ : ∃ k : Fin 100000, Cert.KernelIdeal.gather_S100000_S3200000x1_S3200000_n_0_n_n_0_1_1.operandIdx e (startIdx col) = ix1 k := ⟨_, eq_ix1 _⟩
  rw [hn, hk]
  show FloatOps.addf (F := Ideal) (φ := .f32) (FloatOps.mulf (F := Ideal) (φ := .f32) (FloatOps.mulf (F := Ideal) (φ := .f32) (FloatOps.mulf (F := Ideal) (φ := .f32) (d (ix1 n)) (w e)) (d (ix1 k))) (P (ix1 k))) (FloatOps.mulf (F := Ideal) (φ := .f32) (Q (ix1 n)) (w e))
    = FloatOps.mulf (F := Ideal) (φ := .f32) (w e) (FloatOps.addf (F := Ideal) (φ := .f32) (FloatOps.mulf (F := Ideal) (φ := .f32) (d (ix1 n)) (FloatOps.mulf (F := Ideal) (φ := .f32) (d (ix1 k)) (P' (ix1 k)))) (Q' (ix1 n)))
  rw [hP k, hQ n]
  simp only [Ideal.mulf_def, Ideal.addf_def]
  exact (rearrange _ _ _ _ _ (hQr n) (hw e)).symm

/-! ## The two programs' results as whole arrays over the same stages -/

/-- The reference's result: its stages are the kernel's (the same operations on the same edge list). -/
theorem reference_whole (x0 : FArr Cert.KernelIdeal.S100000x256) (x1 : IArr Cert.KernelIdeal.S2x3200000) (x2 : FArr Cert.KernelIdeal.S3200000) (x3 : FArr Cert.KernelIdeal.S256x1) (x4 : FArr Cert.KernelIdeal.S1) (x5 : FArr Cert.KernelIdeal.S256x1) (x6 : FArr Cert.KernelIdeal.S1) :
    Cert.ReferenceIdeal.Read.val_main_v54 (F := Ideal) x0 x1 x2 x3 x4 x5 x6
      = addf (F := Ideal) (s := Cert.KernelIdeal.S3200000) (φ := .f32) (mulf (F := Ideal) (s := Cert.KernelIdeal.S3200000) (φ := .f32) (mulf (F := Ideal) (s := Cert.KernelIdeal.S3200000) (φ := .f32) (mulf (F := Ideal) (s := Cert.KernelIdeal.S3200000) (φ := .f32) (take (degNorm x1) (rowOf x1)) x2) (take (degNorm x1) (colOf x1)))
            (take (Cert.ReferenceIdeal.Read.val_main_v31 (F := Ideal) x0 x3 x4) (colOf x1)))
          (mulf (F := Ideal) (s := Cert.KernelIdeal.S3200000) (φ := .f32) (take (Cert.ReferenceIdeal.Read.val_main_v37 (F := Ideal) x0 x5 x6) (rowOf x1)) x2) := rfl

/-- The kernel's result, its definitions opened. -/
theorem kernel_whole (x0 : FArr Cert.KernelIdeal.S100000x256) (x1 : IArr Cert.KernelIdeal.S2x3200000) (x2 : FArr Cert.KernelIdeal.S3200000) (x3 : FArr Cert.KernelIdeal.S256x1) (x4 : FArr Cert.KernelIdeal.S1) (x5 : FArr Cert.KernelIdeal.S256x1) (x6 : FArr Cert.KernelIdeal.S1) :
    result x0 x1 x2 x3 x4 x5 x6
      = edgeValue (take (degNorm x1) (rowOf x1)) (take (mulf (F := Ideal) (s := Cert.KernelIdeal.S100000) (φ := .f32) (degNorm x1) (column0 (Cert.KernelIdeal.GateLinear.gates x0 (weights x3 x5) (biases x4 x6)))) (colOf x1))
          (take (column1 (Cert.KernelIdeal.GateLinear.gates x0 (weights x3 x5) (biases x4 x6))) (rowOf x1)) x2 := rfl

/-- One function of the arguments. -/
theorem result_eq (x0 : FArr Cert.KernelIdeal.S100000x256) (x1 : IArr Cert.KernelIdeal.S2x3200000) (x2 : FArr Cert.KernelIdeal.S3200000) (x3 : FArr Cert.KernelIdeal.S256x1) (x4 : FArr Cert.KernelIdeal.S1) (x5 : FArr Cert.KernelIdeal.S256x1) (x6 : FArr Cert.KernelIdeal.S1)
    (h0 : ∀ i, IsReal (x0 i)) (h2 : ∀ i, IsReal (x2 i)) (h5 : ∀ i, IsReal (x5 i)) (h6 : ∀ i, IsReal (x6 i)) :
    Cert.ReferenceIdeal.Read.val_main_v54 (F := Ideal) x0 x1 x2 x3 x4 x5 x6 = result x0 x1 x2 x3 x4 x5 x6 := by
  rw [reference_whole, kernel_whole]
  exact edge_law (degNorm x1) (Cert.ReferenceIdeal.Read.val_main_v31 (F := Ideal) x0 x3 x4) (Cert.ReferenceIdeal.Read.val_main_v37 (F := Ideal) x0 x5 x6)
    (column0 (Cert.KernelIdeal.GateLinear.gates x0 (weights x3 x5) (biases x4 x6))) (column1 (Cert.KernelIdeal.GateLinear.gates x0 (weights x3 x5) (biases x4 x6))) (rowOf x1) (colOf x1) x2
    (fun n => (Cert.KernelIdeal.KernelGates.gateP_at x0 x3 x5 x4 x6 n).trans (Cert.ReferenceIdeal.RefGates.gateP_at x0 x3 x4 n).symm)
    (fun n => (Cert.KernelIdeal.KernelGates.gateQ_at x0 x3 x5 x4 x6 n).trans (Cert.ReferenceIdeal.RefGates.gateQ_at x0 x5 x6 n).symm)
    (fun n => by rw [Cert.ReferenceIdeal.RefGates.gateQ_at]; exact gate_isReal x0 x5 x6 h0 h5 h6 n)
    h2

end Cert.Bridge

end
-- ==== Proof.lean ====
/-
  Two programs for one graph layer over 100000 nodes, 256 features and 3200000 weighted edges. Per edge e with source
  row[e], target col[e] and weight w[e], with d = (in-degree)^(-1/2) per node and two gates per node,
  P[n] = relu(x[n,·]·p_w + p_b) and Q[n] = relu(x[n,·]·q_w + q_b):

      reference:   out[e] = ((d[row e] · w[e]) · d[col e]) · P[col e] + Q[row e] · w[e]
      kernel:      out[e] = w[e] · (d[row e] · (d[col e] · P[col e]) + Q[row e])

  The kernel computes both gates in one launch (a matrix product against the two weight columns side by side), folds
  d · P into one per-node table, and combines the four per-edge streams in a second launch over a [25000, 128] layout.

  On the extended reals (d is +∞ at a node with no incoming edge) the two agree whenever Q and w are finite reals,
  which the precondition gives: every float argument is finite, so the sums of products that make Q are finite.
  Multiplication is commutative and associative without condition; the one distribution used is of the finite factor
  w over a sum whose second term Q is finite.

  The three frames: the two kernel programs' are the generated frames; the reference's is its generated run with the
  result forgotten. The idealisation rewrote nothing, so there is nothing to preserve. The equivalence: the kernel's
  run with its result buffer named as one function of the arguments (KernelValue), the reference's generated run, and
  the equality of the two functions (Bridge), at arguments that agree.
-/
import proofs.«177552_j25744033972452_2_alg».proof.Defs
import proofs.«177552_j25744033972452_2_alg».proof.Proof.Gen.Kernel
import proofs.«177552_j25744033972452_2_alg».proof.Proof.Gen.Kernel.Skeleton
import proofs.«177552_j25744033972452_2_alg».proof.Proof.Gen.Kernel.Launch
import proofs.«177552_j25744033972452_2_alg».proof.Proof.Gen.Kernel.Points
import proofs.«177552_j25744033972452_2_alg».proof.Proof.Gen.Kernel.Frame
import proofs.«177552_j25744033972452_2_alg».proof.Proof.Gen.KernelIdeal
import proofs.«177552_j25744033972452_2_alg».proof.Proof.Gen.KernelIdeal.Skeleton
import proofs.«177552_j25744033972452_2_alg».proof.Proof.Gen.KernelIdeal.Launch
import proofs.«177552_j25744033972452_2_alg».proof.Proof.Gen.KernelIdeal.Points
import proofs.«177552_j25744033972452_2_alg».proof.Proof.Gen.KernelIdeal.Frame
import proofs.«177552_j25744033972452_2_alg».proof.Proof.Gen.ReferenceIdeal
import proofs.«177552_j25744033972452_2_alg».proof.Proof.Gen.Pre_finite_inputs
import proofs.«177552_j25744033972452_2_alg».proof.Proof.Gen.ReferenceIdeal.Run
import proofs.«177552_j25744033972452_2_alg».proof.Proof.Gen.ReferenceIdeal.Read
import proofs.«177552_j25744033972452_2_alg».proof.Proof.KernelValue
import proofs.«177552_j25744033972452_2_alg».proof.Proof.FiniteArgs
import proofs.«177552_j25744033972452_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame: its run, the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the kernel's function of the arguments in their result buffers. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.KernelValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq]
  obtain ⟨a0, a1, a2, a3, a4, a5, a6⟩ := hagree c
  rw [a0, a1, a2, a3, a4, a5, a6]
  obtain ⟨f0, f2, f5, f6⟩ := Cert.KernelIdeal.FiniteArgs.of_pre m hpre c
  exact Cert.Bridge.result_eq _ _ _ _ _ _ _ f0 f2 f5 f6

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
